-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4096x1 : Shape := ⟨2, ![4096, 1]⟩
abbrev S1x4096 : Shape := ⟨2, ![1, 4096]⟩
abbrev S512x4096 : Shape := ⟨2, ![512, 4096]⟩
abbrev S1024x4096 : Shape := ⟨2, ![1024, 4096]⟩
abbrev S512x1 : Shape := ⟨2, ![512, 1]⟩
abbrev S1x1024 : Shape := ⟨2, ![1, 1024]⟩
abbrev S512x1024 : Shape := ⟨2, ![512, 1024]⟩

abbrev nBuf : Space → Nat
  | .hbm => 50
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S8192x4096, .bf16⟩
  | .hbm, ⟨46, _⟩ => ⟨S4096x4096, .bf16⟩
  | .hbm, ⟨47, _⟩ => ⟨S1x4096, .f32⟩
  | .hbm, ⟨48, _⟩ => ⟨S1x4096, .f32⟩
  | .hbm, ⟨49, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S512x1, .f32⟩
  | .local _ .vmem, ⟨5, _⟩ => ⟨S512x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  reducesTo_S4096x4096_S4096_d1 : S4096x4096.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bitsLt_bf16_f32 : FTy.bits .bf16 < FTy.bits .f32
  transposes_S4096x1_S1x4096_1_0 : S4096x1.Transposes [1, 0] S1x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x4096.size a
  hwx0_5 : ∀ i : grid0.Coords, EltTy.bits .f32 = 32 ∨ (Rect.block (s := S8192x4096) S512x1024.size (cc0_transform_5 i) (hinb0_5 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v22) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S8192 : Shape := ⟨1, ![8192]⟩
abbrev S8192x1 : Shape := ⟨2, ![8192, 1]⟩
abbrev S1x4096 : Shape := ⟨2, ![1, 4096]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S8192x4096, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S1x4096, .f32⟩
  | .hbm, ⟨47, _⟩ => ⟨S8192x4096, .f32⟩
  | .hbm, ⟨48, _⟩ => ⟨S8192x4096, .f32⟩
  | .hbm, ⟨49, _⟩ => ⟨S8192x4096, .f32⟩
  | .hbm, ⟨50, _⟩ => ⟨S8192x4096, .f32⟩
  | .hbm, ⟨51, _⟩ => ⟨S1x4096, .f32⟩
  | .hbm, ⟨52, _⟩ => ⟨S8192x4096, .f32⟩
  | .hbm, ⟨53, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_cst_4 : Ref sig .tc := ⟨.hbm, 25, rfl⟩
abbrev main_v12 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S8192x4096_S8192_d1 : S8192x4096.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  transposes_S4096x1_S1x4096_1_0 : S4096x1.Transposes [1, 0] S1x4096
  bcast_S1x4096_S8192x4096_0_1 : S1x4096.BroadcastsInDim S8192x4096 (![0, 1] : Fin 2 → Fin S8192x4096.rank)
  bcast_S4096_S1x4096_1 : S4096.BroadcastsInDim S1x4096 (![1] : Fin 1 → Fin S1x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BlockPayload.lean ====
/-
  What the kernel body stores, read at one index of its block.

  At a grid point the body loads a block of 512 quantized activation rows (`x0 : [512, 4096]`), a block of 1024
  quantized weight rows (`x1 : [1024, 4096]`), the 512 activation scales as a column (`x2 : [512, 1]`), the 1024
  weight scales as a row (`x3 : [1, 1024]`) and the 1024 biases as a row (`x4 : [1, 1024]`), and stores

      (x0 · x1ᵀ) ⊙ (x2 broadcast along the row ⊙ x3 broadcast down the column) + x4 broadcast down the column.

  Over the extended reals the matrix product into the zero accumulator is the plain sum over the contracted axis, a
  change of float format is the identity, and each broadcast reads its operand at coordinate 0 on the unit axis. So
  the stored entry at `(p, q)` is `(∑ k, x0 (p, k) · x1 (q, k)) · (x2 (p, 0) · x3 (0, q)) + x4 (0, q)`.
-/
import proofs.«172348_j30081950941534_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The two broadcasts at an index -/

/-- A column `[512, 1]` broadcast to `[512, 1024]`, at `(p, q)`, is the column at row `p`. -/
theorem broadcast_column (v : FVec Ideal S512x1 .f32) (h : S512x1.Broadcasts S512x1024) (p : Fin 512) (q : Fin 1024) :
    broadcastTo S512x1024 v h (ix2 p q) = v (ix2 p (0 : Fin 1)) :=
  broadcastTo_apply v h (ix2 p q) (ix2 p (0 : Fin 1)) (fun a => match a with
    | ⟨0, _⟩ => by show p.val = if (512 : Nat) = 1 then 0 else p.val; rw [if_neg (by decide)]
    | ⟨1, _⟩ => by show (0 : Nat) = if (1 : Nat) = 1 then 0 else q.val; rw [if_pos rfl])

/-- A row `[1, 1024]` broadcast to `[512, 1024]`, at `(p, q)`, is the row at column `q`. -/
theorem broadcast_row (v : FVec Ideal S1x1024 .f32) (h : S1x1024.Broadcasts S512x1024) (p : Fin 512) (q : Fin 1024) :
    broadcastTo S512x1024 v h (ix2 p q) = v (ix2 (0 : Fin 1) q) :=
  broadcastTo_apply v h (ix2 p q) (ix2 (0 : Fin 1) q) (fun a => match a with
    | ⟨0, _⟩ => by show (0 : Nat) = if (1 : Nat) = 1 then 0 else p.val; rw [if_pos rfl]
    | ⟨1, _⟩ => by show q.val = if (1024 : Nat) = 1 then 0 else q.val; rw [if_neg (by decide)])

/-! ## The block's matrix product at an index -/

/-- The left operand's index of the product at `j` keeps `j`'s row. -/
theorem lhs_row (j : S512x1024.Idx) (q : dot_S512x4096_S1024x4096_S512x1024_1_1_0_0_n_n.contr.Idx) :
    (dot_S512x4096_S1024x4096_S512x1024_1_1_0_0_n_n.lhsIdx j q 0).val = (j 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl

/-- The right operand's index of the product at `j` has `j`'s column as its row. -/
theorem rhs_row (j : S512x1024.Idx) (q : dot_S512x4096_S1024x4096_S512x1024_1_1_0_0_n_n.contr.Idx) :
    (dot_S512x4096_S1024x4096_S512x1024_1_1_0_0_n_n.rhsIdx j q 0).val = (j 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl

/-- The product of a `[512, 4096]` block with the transpose of a `[1024, 4096]` block, into the zero accumulator, at
    `(p, q)`: the inner product of row `p` of the first with row `q` of the second. -/
theorem matmul_at (x0 : FVec Ideal S512x4096 .bf16) (x1 : FVec Ideal S1024x4096 .bf16) (p : Fin 512) (q : Fin 1024) :
    matmul dot_S512x4096_S1024x4096_S512x1024_1_1_0_0_n_n none x0 x1 (constant (F := Ideal) S512x1024 .f32 0x00000000#32) (ix2 p q)
      = ∑ k : Fin 4096, x0 (ix2 p k) * x1 (ix2 q k) := by
  show FloatOps.matmul dot_S512x4096_S1024x4096_S512x1024_1_1_0_0_n_n none x0 x1 (constant (F := Ideal) S512x1024 .f32 0x00000000#32) (ix2 p q) = _
  rw [Ideal.matmul_constant_zero_apply,
    ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q)
      ((contrEquiv1 dot_S512x4096_S1024x4096_S512x1024_1_1_0_0_n_n 4096 rfl rfl).symm k) = ix2 p k :=
    funext fun a => Fin.ext (by
      match a with
      | ⟨0, _⟩ => exact lhs_row _ _
      | ⟨1, _⟩ => exact (dot_S512x4096_S1024x4096_S512x1024_1_1_0_0_n_n.lhsIdx_val_of_single rfl _ _).trans hk)
  have er : dot_S512x4096_S1024x4096_S512x1024_1_1_0_0_n_n.rhsIdx (ix2 p q)
      ((contrEquiv1 dot_S512x4096_S1024x4096_S512x1024_1_1_0_0_n_n 4096 rfl rfl).symm k) = ix2 q k :=
    funext fun a => Fin.ext (by
      match a with
      | ⟨0, _⟩ => exact rhs_row _ _
      | ⟨1, _⟩ => exact (dot_S512x4096_S1024x4096_S512x1024_1_1_0_0_n_n.rhsIdx_val_of_single rfl _ _).trans hk)
  rw [el, er]

/-! ## The stored value at an index -/

/-- The body's one stored value at `(p, q)` of the block, from the five loaded blocks. -/
theorem stored_at (x0 : Vec Ideal S512x4096 .bf16) (x1 : Vec Ideal S1024x4096 .bf16) (x2 : Vec Ideal S512x1 .f32)
    (x3 : Vec Ideal S1x1024 .f32) (x4 : Vec Ideal S1x1024 .f32) (p : Fin 512) (q : Fin 1024) :
    k0_pay1 x0 x1 x2 x3 x4 (ix2 p q)
      = (∑ k : Fin 4096, x0 (ix2 p k) * x1 (ix2 q k)) * (x2 (ix2 p (0 : Fin 1)) * x3 (ix2 (0 : Fin 1) q))
        + x4 (ix2 (0 : Fin 1) q) := by
  unfold k0_pay1
  rw [shapeCast_self x0, shapeCast_self x1, shapeCast_self x2, shapeCast_self x3, shapeCast_self x4,
    addf_apply, mulf_apply, mulf_apply, matmul_at, broadcast_column, broadcast_row, broadcast_row]

end Cert.KernelIdeal.Block

end
-- ==== Proof.Dequant.lean ====
/-
  The function both programs compute, stated once, over the extended reals.

  A row-quantized linear layer: the activations `x : [8192, 4096]` and the weights `W : [4096, 4096]` are each
  quantized row by row into integer-valued entries `qx`, `qw` and one scale per row, `sx : [8192, 1]`,
  `sw : [4096, 1]`. The layer's output entry at row `r`, column `c` is the inner product of row `r` of `qx` with row `c`
  of `qw`, rescaled by the product of the two rows' scales, plus the bias of column `c`:

      out (r, c) = (∑ k, qx (r, k) · qw (c, k)) · (sx (r, 0) · swt (0, c)) + b (0, c)

  where `swt : [1, 4096]` is the weights' scales laid out as a row and `b : [1, 4096]` the bias laid out as a row.
  The grouping is exactly this one on both sides (the inner product, times the product of the scales, plus the bias),
  so no law of the extended reals beyond reading each operation at an index is needed to join them: in particular
  nothing here depends on the entries being finite.
-/
import Idealize.ShloMosaic.PureOps.Ideal
import Idealize.ShloMosaic.Lib.ValueIdx

noncomputable section

open scoped BigOperators

namespace Cert.Dequant

open Idealize.ShloMosaic Idealize.ShloMosaic.ValueIdx

/-- The output entry at row `r` and column `c`: the inner product of the two quantized rows, times the product of
    their scales, plus the column's bias. -/
def entry (qx : (⟨2, ![8192, 4096]⟩ : Shape).Idx → EReal) (qw : (⟨2, ![4096, 4096]⟩ : Shape).Idx → EReal)
    (sx : (⟨2, ![8192, 1]⟩ : Shape).Idx → EReal) (swt : (⟨2, ![1, 4096]⟩ : Shape).Idx → EReal)
    (b : (⟨2, ![1, 4096]⟩ : Shape).Idx → EReal) (r : Fin 8192) (c : Fin 4096) : EReal :=
  (∑ k : Fin 4096, qx (ix2 r k) * qw (ix2 c k)) * (sx (ix2 r (0 : Fin 1)) * swt (ix2 (0 : Fin 1) c))
    + b (ix2 (0 : Fin 1) c)

/-- The whole output array: `entry` at each index's two coordinates. -/
def out (qx : (⟨2, ![8192, 4096]⟩ : Shape).Idx → EReal) (qw : (⟨2, ![4096, 4096]⟩ : Shape).Idx → EReal)
    (sx : (⟨2, ![8192, 1]⟩ : Shape).Idx → EReal) (swt : (⟨2, ![1, 4096]⟩ : Shape).Idx → EReal)
    (b : (⟨2, ![1, 4096]⟩ : Shape).Idx → EReal) : (⟨2, ![8192, 4096]⟩ : Shape).Idx → EReal :=
  fun i => entry qx qw sx swt b (i 0) (i 1)

/-- The array at an index whose coordinates are known. -/
theorem out_apply (qx : (⟨2, ![8192, 4096]⟩ : Shape).Idx → EReal) (qw : (⟨2, ![4096, 4096]⟩ : Shape).Idx → EReal)
    (sx : (⟨2, ![8192, 1]⟩ : Shape).Idx → EReal) (swt : (⟨2, ![1, 4096]⟩ : Shape).Idx → EReal)
    (b : (⟨2, ![1, 4096]⟩ : Shape).Idx → EReal) (i : (⟨2, ![8192, 4096]⟩ : Shape).Idx) (r : Fin 8192) (c : Fin 4096)
    (hr : (i 0).val = r.val) (hc : (i 1).val = c.val) :
    out qx qw sx swt b i = entry qx qw sx swt b r c := by
  have e0 : i 0 = r := Fin.ext hr
  have e1 : i 1 = c := Fin.ext hc
  unfold out
  rw [e0, e1]

end Cert.Dequant

end
-- ==== Proof.KernelArray.lean ====
/-
  From the kernel's blocks to its whole output array.

  The grid has 4 × 16 points; the point with coordinates `(j, i)` works on activation rows `512·i … 512·i + 511` and
  weight rows `1024·j … 1024·j + 1023`, and writes back the `[512, 1024]` block of the output at block index `(i, j)`.
  The quantized activations and their scales are windowed by row block `i`, the quantized weights by row block `j`, and the
  weights' scales and the bias (both laid out as rows) by column block `j`. So entry `(p, q)` of the block written at
  that point is the specification's entry at row `512·i + p`, column `1024·j + q`, of the arrays the region finds; the 64
  blocks tile the `[8192, 4096]` output, hence the array ends as the specification's whole output.
-/
import proofs.«172348_j30081950941534_2_alg».proof.Proof.Gen.KernelIdeal.Value
import proofs.«172348_j30081950941534_2_alg».proof.Proof.BlockPayload
import proofs.«172348_j30081950941534_2_alg».proof.Proof.Dequant

noncomputable section

open scoped BigOperators

namespace Cert.KernelIdeal.Array

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One block, over variables -/

/-- If the five loaded blocks are the row block `bi` of the quantized activations and of their scales, the row block
    `bj` of the quantized weights, and the column block `bj` of the weights' scales and of the bias, then the stored value
    at `(p, q)` is the specification's output at the array index `i` with coordinates `(512·bi + p, 1024·bj + q)`. -/
theorem block_eq (QX : (⟨2, ![8192, 4096]⟩ : Shape).Idx → EReal) (QW : (⟨2, ![4096, 4096]⟩ : Shape).Idx → EReal)
    (SX : (⟨2, ![8192, 1]⟩ : Shape).Idx → EReal) (SWT : (⟨2, ![1, 4096]⟩ : Shape).Idx → EReal)
    (B : (⟨2, ![1, 4096]⟩ : Shape).Idx → EReal)
    (x0 : Vec Ideal S512x4096 .bf16) (x1 : Vec Ideal S1024x4096 .bf16) (x2 : Vec Ideal S512x1 .f32)
    (x3 : Vec Ideal S1x1024 .f32) (x4 : Vec Ideal S1x1024 .f32) (bi bj : Nat) (hbi : bi < 16) (hbj : bj < 4)
    (h0 : ∀ (p : Fin 512) (k : Fin 4096), x0 (ix2 p k) = QX (ix2 (⟨bi * 512 + p.val, by omega⟩ : Fin 8192) k))
    (h1 : ∀ (q : Fin 1024) (k : Fin 4096), x1 (ix2 q k) = QW (ix2 (⟨bj * 1024 + q.val, by omega⟩ : Fin 4096) k))
    (h2 : ∀ p : Fin 512, x2 (ix2 p (0 : Fin 1)) = SX (ix2 (⟨bi * 512 + p.val, by omega⟩ : Fin 8192) (0 : Fin 1)))
    (h3 : ∀ q : Fin 1024, x3 (ix2 (0 : Fin 1) q) = SWT (ix2 (0 : Fin 1) (⟨bj * 1024 + q.val, by omega⟩ : Fin 4096)))
    (h4 : ∀ q : Fin 1024, x4 (ix2 (0 : Fin 1) q) = B (ix2 (0 : Fin 1) (⟨bj * 1024 + q.val, by omega⟩ : Fin 4096)))
    (p : Fin 512) (q : Fin 1024) (i : (⟨2, ![8192, 4096]⟩ : Shape).Idx)
    (hi0 : (i 0).val = bi * 512 + p.val) (hi1 : (i 1).val = bj * 1024 + q.val) :
    k0_pay1 x0 x1 x2 x3 x4 (ix2 p q) = Cert.Dequant.out QX QW SX SWT B i := by
  rw [Block.stored_at, Cert.Dequant.out_apply QX QW SX SWT B i ⟨bi * 512 + p.val, by omega⟩ ⟨bj * 1024 + q.val, by omega⟩ hi0 hi1]
  unfold Cert.Dequant.entry
  have es : (∑ k : Fin 4096, x0 (ix2 p k) * x1 (ix2 q k))
      = ∑ k : Fin 4096, QX (ix2 (⟨bi * 512 + p.val, by omega⟩ : Fin 8192) k) * QW (ix2 (⟨bj * 1024 + q.val, by omega⟩ : Fin 4096) k) :=
    Finset.sum_congr rfl fun k _ => by rw [h0, h1]
  rw [es, h2, h3, h4]

/-! ## The index maps, decided over the grid -/

theorem zero_offsets : (![0, 0] : Fin 2 → Nat) = fun _ => 0 := funext fun a => by fin_cases a <;> rfl

/-- How each input window's block index follows the output window's, at every grid point, and the output's range. -/
theorem index_facts : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) < 16 ∧ win0_5.index t (1 : Fin 2) < 4 :=
  (by decide +kernel : ∀ t : Fin grid0.N, _)

/-- Every block index of the output is some point's. -/
theorem index_onto : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

/-! ## What a point writes back -/

/-- At point `t`, for ANY five arrays in the windows' places: the body's stored value of the windows' blocks, read
    through the output window, is block `t` of the specification's output of those arrays. -/
theorem point_eq (t : Fin cfg0.N) (A0 : (⟨2, ![8192, 4096]⟩ : Shape).Idx → EReal) (A1 : (⟨2, ![4096, 4096]⟩ : Shape).Idx → EReal)
    (A2 : (⟨2, ![8192, 1]⟩ : Shape).Idx → EReal) (A3 : (⟨2, ![1, 4096]⟩ : Shape).Idx → EReal)
    (A4 : (⟨2, ![1, 4096]⟩ : Shape).Idx → EReal) :
    (cfg0.win 5).cut (grid0.coords t)
        (k0_pay1 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (Cert.Dequant.out A0 A1 A2 A3 A4) := by
  obtain ⟨a0, a1, b0, b1, c0, c1, d0, d1, e0, e1, f0, f1⟩ := index_facts t
  funext y
  show k0_pay1 (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) y
    = Cert.Dequant.out A0 A1 A2 A3 A4 (((cfg0.win 5).blk t).view.emb y)
  refine (congrArg (k0_pay1 _ _ _ _ _) (eq_ix2 (n0 := 512) (n1 := 1024) y)).trans (block_eq A0 A1 A2 A3 A4 _ _ _ _ _
    (win0_5.index t (0 : Fin 2)) (win0_5.index t (1 : Fin 2)) f0 f1 ?_ ?_ ?_ ?_ ?_ (y 0) (y 1) (((cfg0.win 5).blk t).view.emb y) ?_ ?_)
  · intro p k
    show A0 (((cfg0.win 0).blk t).view.emb (ix2 p k)) = A0 _
    refine congrArg A0 (funext fun a => Fin.ext ?_)
    match a with
    | ⟨0, _⟩ => show win0_0.index t (0 : Fin 2) * 512 + 1 * p.val = win0_5.index t (0 : Fin 2) * 512 + p.val; omega
    | ⟨1, _⟩ => show win0_0.index t (1 : Fin 2) * 4096 + 1 * k.val = k.val; omega
  · intro q k
    show A1 (((cfg0.win 1).blk t).view.emb (ix2 q k)) = A1 _
    refine congrArg A1 (funext fun a => Fin.ext ?_)
    match a with
    | ⟨0, _⟩ => show win0_1.index t (0 : Fin 2) * 1024 + 1 * q.val = win0_5.index t (1 : Fin 2) * 1024 + q.val; omega
    | ⟨1, _⟩ => show win0_1.index t (1 : Fin 2) * 4096 + 1 * k.val = k.val; omega
  · intro p
    show A2 (((cfg0.win 2).blk t).view.emb (ix2 p (0 : Fin 1))) = A2 _
    refine congrArg A2 (funext fun a => Fin.ext ?_)
    match a with
    | ⟨0, _⟩ => show win0_2.index t (0 : Fin 2) * 512 + 1 * p.val = win0_5.index t (0 : Fin 2) * 512 + p.val; omega
    | ⟨1, _⟩ => show win0_2.index t (1 : Fin 2) * 1 + 1 * 0 = 0; omega
  · intro q
    show A3 (((cfg0.win 3).blk t).view.emb (ix2 (0 : Fin 1) q)) = A3 _
    refine congrArg A3 (funext fun a => Fin.ext ?_)
    match a with
    | ⟨0, _⟩ => show win0_3.index t (0 : Fin 2) * 1 + 1 * 0 = 0; omega
    | ⟨1, _⟩ => show win0_3.index t (1 : Fin 2) * 1024 + 1 * q.val = win0_5.index t (1 : Fin 2) * 1024 + q.val; omega
  · intro q
    show A4 (((cfg0.win 4).blk t).view.emb (ix2 (0 : Fin 1) q)) = A4 _
    refine congrArg A4 (funext fun a => Fin.ext ?_)
    match a with
    | ⟨0, _⟩ => show win0_4.index t (0 : Fin 2) * 1 + 1 * 0 = 0; omega
    | ⟨1, _⟩ => show win0_4.index t (1 : Fin 2) * 1024 + 1 * q.val = win0_5.index t (1 : Fin 2) * 1024 + q.val; omega
  · show win0_5.index t (0 : Fin 2) * 512 + 1 * (y 0).val = win0_5.index t (0 : Fin 2) * 512 + (y 0).val; omega
  · show win0_5.index t (1 : Fin 2) * 1024 + 1 * (y 1).val = win0_5.index t (1 : Fin 2) * 1024 + (y 1).val; omega

/-- Point `t` writes back block `t` of the specification's output of the arrays the region finds in its five input
    windows' places. -/
theorem flushed_eq (c : Dev nD) (t : Fin cfg0.N) :
    (dats m 0 c).flushed 5 t = ((cfg0.win 5).blk t).view.read (Elt Ideal)
      (Cert.Dequant.out (V m c (Pipeline.arrRef spec0 0)) (V m c (Pipeline.arrRef spec0 1)) (V m c (Pipeline.arrRef spec0 2))
        (V m c (Pipeline.arrRef spec0 3)) (V m c (Pipeline.arrRef spec0 4))) := by
  rw [Value.flushed5]
  unfold out0_5
  rw [View.canon_unit_zero zero_offsets]
  simp only [View.ld_unit_zero (S := S512x4096) zero_offsets, View.ld_unit_zero (S := S1024x4096) zero_offsets,
    View.ld_unit_zero (S := S512x1) zero_offsets, View.ld_unit_zero (S := S1x1024) zero_offsets]
  unfold iblk
  exact point_eq t _ _ _ _ _

/-! ## The blocks tile the array -/

/-- An index of the output array is in point `t`'s block iff each coordinate is in the block's range on its axis. -/
theorem mem_block (t : Fin cfg0.N) (i : S8192x4096.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v26).slice (win0_5.rect t)).set ↔ _
  rw [View.set_slice_whole, Rect.mem_set_unit]
  exact Iff.rfl

/-- Every index of the output array is in the block of the point whose block index is (row / 512, column / 1024). -/
theorem cover (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := index_onto ⟨(i 0).val / 512, by omega⟩ ⟨(i 1).val / 1024, by omega⟩
  have q0 : win0_5.index t (0 : Fin 2) = (i 0).val / 512 := congrFun ht 0
  have q1 : win0_5.index t (1 : Fin 2) = (i 1).val / 1024 := congrFun ht 1
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-! ## The array after the run -/

/-- The output array after the run is the specification's output of the five arrays the region finds in its input
    windows' places. -/
theorem final_blocks (c : Dev nD) :
    (dats m 0 c).arrAt 5 cfg0.N
      = Cert.Dequant.out (V m c (Pipeline.arrRef spec0 0)) (V m c (Pipeline.arrRef spec0 1)) (V m c (Pipeline.arrRef spec0 2))
          (V m c (Pipeline.arrRef spec0 3)) (V m c (Pipeline.arrRef spec0 4)) :=
  (dats m 0 c).arrAt_eq_of_cover 5 _ (fun t _ => flushed_eq m c t) cover

end Cert.KernelIdeal.Array

end
-- ==== Proof.HostPrefix.lean ====
/-
  The five arrays the kernel's region finds, as functions of the three arguments.

  Before the region the kernel's host code quantizes the activations and the weights exactly as the reference does
  — absolute row maximum, floored at `1e-8` and divided by `127` for the scale; the entries divided by their row's scale,
  rounded to the nearest even integer and clamped to `[-127, 127]` for the quantized values — with the same operations
  and the same literal words, only in the other order (activations first). A change of float format is the identity
  on the extended reals, so the region's two narrowed operands are the reference's quantized arrays themselves; its scale
  column is the reference's activation scales, its scale row the reference's transposed weight scales. The bias row is a
  reshape `[4096] → [1, 4096]` here and a broadcast there: both read the bias at the column.
-/
import proofs.«172348_j30081950941534_2_alg».proof.Proof.Gen.KernelIdeal.Frame
import proofs.«172348_j30081950941534_2_alg».proof.Proof.Gen.ReferenceIdeal.Read
import Idealize.ShloMosaic.Lib.StableHlo.Run
import Idealize.ShloMosaic.Lib.Pipeline.Value

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 2000000 in
/-- The region's first operand is the reference's quantized activations. -/
theorem found_qx (c : Dev nD) :
    (V m c main_v22 : (⟨2, ![8192, 4096]⟩ : Shape).Idx → EReal)
      = Cert.ReferenceIdeal.Read.val_main_v21 (F := Ideal) (m ((c : Thread nD τ).loc main_arg0)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 2000000 in
/-- The region's second operand is the reference's quantized weights. -/
theorem found_qw (c : Dev nD) :
    (V m c main_v23 : (⟨2, ![4096, 4096]⟩ : Shape).Idx → EReal)
      = Cert.ReferenceIdeal.Read.val_main_v10 (F := Ideal) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 2000000 in
/-- The region's scale column is the reference's activation scales. -/
theorem found_sx (c : Dev nD) :
    (V m c main_v6 : (⟨2, ![8192, 1]⟩ : Shape).Idx → EReal)
      = Cert.ReferenceIdeal.Read.val_main_v17 (F := Ideal) (m ((c : Thread nD τ).loc main_arg0)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 2000000 in
/-- The region's scale row is the reference's weight scales, transposed. -/
theorem found_swt (c : Dev nD) :
    (V m c main_v24 : (⟨2, ![1, 4096]⟩ : Shape).Idx → EReal)
      = Cert.ReferenceIdeal.Read.val_main_v23 (F := Ideal) (m ((c : Thread nD τ).loc main_arg1)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

set_option maxHeartbeats 2000000 in
/-- The region's bias row is the reference's: the reshape of the bias to one row and its broadcast to one row both read
    the bias at the column. -/
theorem found_bias (c : Dev nD) :
    (V m c main_v25 : (⟨2, ![1, 4096]⟩ : Shape).Idx → EReal)
      = Cert.ReferenceIdeal.Read.val_main_v28 (F := Ideal) (m ((c : Thread nD τ).loc main_arg2)) := by
  dsimp only [V]
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  funext j
  rw [Cert.ReferenceIdeal.Read.val_main_v28_apply]
  refine (shapeCast_addUnit_apply ![4096] _ _ j).trans (congrArg _ (funext fun a => ?_))
  match a with
  | ⟨0, _⟩ => rfl

end Cert.KernelIdeal.Host

end
-- ==== Proof.KernelResult.lean ====
/-
  The kernel's result as one function of its three arguments, and its run with that result named.

  The output array ends as the specification's output of the five arrays the region finds (the blocks tile it), and
  those five arrays are the reference's own quantized arrays, scales and bias row of the same arguments (the host prefix
  is the reference's quantization). So after the run the result buffer holds the specification's output of the
  reference's stages at the kernel's arguments, and the arguments are as launched.
-/
import proofs.«172348_j30081950941534_2_alg».proof.Proof.KernelArray
import proofs.«172348_j30081950941534_2_alg».proof.Proof.HostPrefix

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The specification's output of the reference's stages, at the kernel's three argument arrays. -/
def spec (c : Dev nD) : (⟨2, ![8192, 4096]⟩ : Shape).Idx → EReal :=
  Cert.Dequant.out
    (Cert.ReferenceIdeal.Read.val_main_v21 (F := Ideal) (m ((c : Thread nD τ).loc main_arg0)))
    (Cert.ReferenceIdeal.Read.val_main_v10 (F := Ideal) (m ((c : Thread nD τ).loc main_arg1)))
    (Cert.ReferenceIdeal.Read.val_main_v17 (F := Ideal) (m ((c : Thread nD τ).loc main_arg0)))
    (Cert.ReferenceIdeal.Read.val_main_v23 (F := Ideal) (m ((c : Thread nD τ).loc main_arg1)))
    (Cert.ReferenceIdeal.Read.val_main_v28 (F := Ideal) (m ((c : Thread nD τ).loc main_arg2)))

/-- The output array after the run, as a function of the arguments. -/
theorem final (c : Dev nD) : (dats m 0 c).arrAt 5 cfg0.N = spec m c := by
  have e0 : (V m c (Pipeline.arrRef spec0 0) : (⟨2, ![8192, 4096]⟩ : Shape).Idx → EReal) = _ := Host.found_qx m c
  have e1 : (V m c (Pipeline.arrRef spec0 1) : (⟨2, ![4096, 4096]⟩ : Shape).Idx → EReal) = _ := Host.found_qw m c
  have e2 : (V m c (Pipeline.arrRef spec0 2) : (⟨2, ![8192, 1]⟩ : Shape).Idx → EReal) = _ := Host.found_sx m c
  have e3 : (V m c (Pipeline.arrRef spec0 3) : (⟨2, ![1, 4096]⟩ : Shape).Idx → EReal) = _ := Host.found_swt m c
  have e4 : (V m c (Pipeline.arrRef spec0 4) : (⟨2, ![1, 4096]⟩ : Shape).Idx → EReal) = _ := Host.found_bias m c
  rw [Array.final_blocks, e0, e1, e2, e3, e4]
  rfl

/-- Every weakly fair execution of the kernel program terminates with the result buffer at `spec` and the arguments
    as launched. -/
theorem run : θ_run defs (onTc (τ := τ) (main (F := Ideal))) ⟨m, fun _ => 0, ρ⟩ fun r => ∀ c : Dev nD,
      r.2.mem ((c : Thread nD τ).loc main_v26) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.ReferenceArray.lean ====
/-
  The reference's result is the dequantized product of its own quantized arrays.

  The reference quantizes the weights and the activations (the stages named `val_main_v10`, `val_main_v21` for the
  quantized entries and `val_main_v6`, `val_main_v17` for the per-row scales), contracts the two quantized arrays over
  their second axis, multiplies by the outer product of the scales (the activations' scales broadcast along the row, the
  weights' scales transposed to a row, `val_main_v23`, and broadcast down the column) and adds the bias laid out as a
  row (`val_main_v28`) and broadcast down the column. Reading those last eight operations at an index `(r, c)` gives
  `(∑ k, qx (r, k) · qw (c, k)) · (sx (r, 0) · swt (0, c)) + b (0, c)`: the specification's entry. The quantization
  stages themselves are never opened.
-/
import proofs.«172348_j30081950941534_2_alg».proof.Proof.Gen.ReferenceIdeal.Read
import proofs.«172348_j30081950941534_2_alg».proof.Proof.Dequant

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's last stage, as one function of its quantized arrays, its scales and its bias row. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v30 (F := Ideal) x0 x1 x2
      = Cert.Dequant.out (val_main_v21 (F := Ideal) x0) (val_main_v10 (F := Ideal) x1) (val_main_v17 (F := Ideal) x0)
          (val_main_v23 (F := Ideal) x1) (val_main_v28 (F := Ideal) x2) := by
  funext i
  rw [val_main_v30_apply, val_main_v27_apply, val_main_v22_apply, val_main_v26_apply, val_main_v24_apply,
    val_main_v25_apply, val_main_v29_apply]
  have e1 : ∀ k : Fin 4096, lidx_main_v22 i k = ix2 (i 0 : Fin 8192) k := fun k => funext fun a => by
    match a with
    | ⟨0, _⟩ => rfl
    | ⟨1, _⟩ => rfl
  have e2 : ∀ k : Fin 4096, ridx_main_v22 i k = ix2 (i 1 : Fin 4096) k := fun k => funext fun a => by
    match a with
    | ⟨0, _⟩ => rfl
    | ⟨1, _⟩ => rfl
  have e3 : idx_main_v24 i = ix2 (i 0 : Fin 8192) (0 : Fin 1) := funext fun a => by
    match a with
    | ⟨0, _⟩ => rfl
    | ⟨1, _⟩ => rfl
  have e4 : idx_main_v25 i = ix2 (0 : Fin 1) (i 1 : Fin 4096) := funext fun a => by
    match a with
    | ⟨0, _⟩ => rfl
    | ⟨1, _⟩ => rfl
  have e5 : idx_main_v29 i = ix2 (0 : Fin 1) (i 1 : Fin 4096) := funext fun a => by
    match a with
    | ⟨0, _⟩ => rfl
    | ⟨1, _⟩ => rfl
  have es : (∑ k : Fin 4096, val_main_v21 (F := Ideal) x0 (lidx_main_v22 i k) * val_main_v10 (F := Ideal) x1 (ridx_main_v22 i k))
      = ∑ k : Fin 4096, val_main_v21 (F := Ideal) x0 (ix2 (i 0 : Fin 8192) k) * val_main_v10 (F := Ideal) x1 (ix2 (i 1 : Fin 4096) k) :=
    Finset.sum_congr rfl fun k _ => by rw [e1 k, e2 k]; rfl
  rw [es, e3, e4, e5]
  rfl

end Cert.ReferenceIdeal.RefValue

end
-- ==== Proof.lean ====
/-
  A row-quantized linear layer on a 4 × 16 grid against its plain reference: equal over the extended reals.

  Both programs quantize the activations `x : [8192, 4096]` and the weights `W : [4096, 4096]` row by row — the
  scale of a row is its absolute maximum, floored at `1e-8`, over `127`; the quantized entries are the row divided by
  its scale, rounded to the nearest even integer and clamped to `[-127, 127]` — with the same host operations and the
  same literal words. The reference then contracts the two quantized arrays over their second axis, multiplies by
  the outer product of the two scale vectors and adds the bias along the rows. The kernel narrows the quantized arrays to
  a 16-bit format (the identity on the extended reals), and at grid point `(j, i)` multiplies activation row block `i`
  by the transpose of weight row block `j` into a zero accumulator, multiplies by the block of the outer product of
  the scales and adds the bias block: output block `(i, j)`. The 64 blocks tile the output.

  Entry `(r, c)` is on both sides `(∑ k, qx (r, k) · qw (c, k)) · (sx r · sw c) + bias c`, in this very grouping, so
  the two results are equal without any appeal to finiteness of the inputs:
    * `Proof/Dequant.lean` states that entry once, as a function of five arrays;
    * `Proof/BlockPayload.lean` reads the kernel body's stored value at an index of its block;
    * `Proof/KernelArray.lean` carries that from the blocks to the whole output array;
    * `Proof/HostPrefix.lean` identifies the five arrays the region finds with the reference's own stages;
    * `Proof/KernelResult.lean` joins the two and re-posts the kernel's run;
    * `Proof/ReferenceArray.lean` reads the reference's last eight operations at an index.
  The three frames are the generated ones (the reference's is its run with the result dropped); the idealization
  rewrote no operation, so there is nothing to preserve.
-/
import proofs.«172348_j30081950941534_2_alg».proof.Defs
import proofs.«172348_j30081950941534_2_alg».proof.Proof.Gen.Kernel
import proofs.«172348_j30081950941534_2_alg».proof.Proof.Gen.Kernel.Skeleton
import proofs.«172348_j30081950941534_2_alg».proof.Proof.Gen.Kernel.Launch
import proofs.«172348_j30081950941534_2_alg».proof.Proof.Gen.Kernel.Points
import proofs.«172348_j30081950941534_2_alg».proof.Proof.Gen.Kernel.Frame
import proofs.«172348_j30081950941534_2_alg».proof.Proof.Gen.KernelIdeal
import proofs.«172348_j30081950941534_2_alg».proof.Proof.Gen.KernelIdeal.Skeleton
import proofs.«172348_j30081950941534_2_alg».proof.Proof.Gen.KernelIdeal.Launch
import proofs.«172348_j30081950941534_2_alg».proof.Proof.Gen.KernelIdeal.Points
import proofs.«172348_j30081950941534_2_alg».proof.Proof.Gen.KernelIdeal.Frame
import proofs.«172348_j30081950941534_2_alg».proof.Proof.Gen.KernelIdeal.Value
import proofs.«172348_j30081950941534_2_alg».proof.Proof.Gen.ReferenceIdeal
import proofs.«172348_j30081950941534_2_alg».proof.Proof.Gen.ReferenceIdeal.Run
import proofs.«172348_j30081950941534_2_alg».proof.Proof.Gen.ReferenceIdeal.Read
import proofs.«172348_j30081950941534_2_alg».proof.Proof.Gen.Pre_finite_inputs
import proofs.«172348_j30081950941534_2_alg».proof.Proof.KernelResult
import proofs.«172348_j30081950941534_2_alg».proof.Proof.ReferenceArray
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the result at the specification's output of
    the reference's quantized arrays, scales and bias row: the kernel by its blocks, the reference by reading its last
    eight operations at an index. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v30_eq _ _ _).trans (Cert.ReferenceIdeal.RefValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
